-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024 : Shape := ⟨1, ![1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x1024 .f32) (main_arg1 : FVec F S1024 .f32) (main_arg2 : FVec F S1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x1024 : Shape := ⟨2, ![65536, 1024]⟩
abbrev S1024 : Shape := ⟨1, ![1024]⟩
abbrev S32x1x2048 : Shape := ⟨3, ![32, 1, 2048]⟩
abbrev S2048x1024 : Shape := ⟨2, ![2048, 1024]⟩
abbrev S1x1x2048 : Shape := ⟨3, ![1, 1, 2048]⟩
abbrev S2048 : Shape := ⟨1, ![2048]⟩
abbrev S2048x512 : Shape := ⟨2, ![2048, 512]⟩
abbrev S512 : Shape := ⟨1, ![512]⟩
abbrev S1x512 : Shape := ⟨2, ![1, 512]⟩
abbrev S65536x1 : Shape := ⟨2, ![65536, 1]⟩

abbrev nBuf : Space → Nat
  | .hbm => 5
  | .vmem => 6
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S32x1x2048, .f32⟩
  | .hbm, ⟨4, _⟩ => ⟨S65536x1, .f32⟩
  | .local _ .vmem, ⟨0, _⟩ => ⟨S2048x1024, .f32⟩
  | .local _ .vmem, ⟨1, _⟩ => ⟨S2048x1024, .f32⟩
  | .local _ .vmem, ⟨2, _⟩ => ⟨S1024, .f32⟩
  | .local _ .vmem, ⟨3, _⟩ => ⟨S1024, .f32⟩
  | .local _ .vmem, ⟨4, _⟩ => ⟨S1x1x2048, .f32⟩
  | .local _ .vmem, ⟨5, _⟩ => ⟨S1x1x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c512_i32 : BitVec 32 := 512#32
  let v1 : BitVec 32 := Scalar.muli c0_i32 c512_i32
  v1
def k0_off1 (c0_i32 : BitVec 32) : Fin 2 → Nat :=
  let c0 : Index := 0#32
  let c512_i32 : BitVec 32 := 512#32
  let v1 : BitVec 32 := Scalar.muli c0_i32 c512_i32
  let v2 : BitVec 32 := v1
  let v3 : Index := Scalar.indexCast v2
  ![0, v3.toNat]
def k0_off2 (c0_i32 : BitVec 32) : Fin 1 → Nat :=
  let c512_i32 : BitVec 32 := 512#32
  let v1 : BitVec 32 := Scalar.muli c0_i32 c512_i32
  let v2 : BitVec 32 := v1
  let v5 : Index := Scalar.indexCast v2
  ![v5.toNat]
def k0_mult2 : BitVec 32 :=
  let c1_i32 : BitVec 32 := 1#32
  let c512_i32_1 : BitVec 32 := 512#32
  let v19 : BitVec 32 := Scalar.muli c1_i32 c512_i32_1
  v19
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S2048x512 : 0 < S2048x512.numel
  h_S512 : 0 < S512.numel
  shapeCasts_S512_S1x512 : S512.ShapeCasts S1x512
  broadcasts_S1x512_S2048x512 : S1x512.Broadcasts S2048x512
  reduces_S2048x512_S2048 : S2048x512.Reduces [1] S2048
  shapeCasts_S2048_S1x1x2048 : S2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S32x1x2048_S65536x1 : S32x1x2048.ShapeCasts S65536x1
  hrank0 : 0 < grid0.rank
  k0_mult1_dvd : 512 ∣ k0_mult1.toNat
  k0_off1_inb : ∀ (r : Fin 2), ∀ a, (k0_off1 (BitVec.ofNat 32 r.val)) a + S2048x512.size a ≤ S2048x1024.size a
  k0_off2_inb : ∀ (r : Fin 2), ∀ a, (k0_off2 (BitVec.ofNat 32 r.val)) a + S512.size a ≤ S1024.size a
  k0_mult2_dvd : 512 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S32x1x2048.size a
  hwx0_3 : ∀ i : grid0.Coords, EltTy.bits .f32 = 32 ∨ (Rect.block (s := S32x1x2048) S1x1x2048.size (cc0_transform_3 i) (hinb0_3 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024 : Shape := ⟨1, ![1024]⟩
abbrev S1x1024 : Shape := ⟨2, ![1, 1024]⟩
abbrev S_ : Shape := ⟨0, ![]⟩
abbrev S65536 : Shape := ⟨1, ![65536]⟩
abbrev S65536x1 : Shape := ⟨2, ![65536, 1]⟩

abbrev nBuf : Space → Nat
  | .hbm => 14
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S65536x1024, .f32⟩
  | .hbm, ⟨5, _⟩ => ⟨S65536x1024, .f32⟩
  | .hbm, ⟨6, _⟩ => ⟨S1x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  reducesTo_S65536x1024_S65536_d1 : S65536x1024.ReducesTo [1] S65536
  h_S_ : 0 < S_.numel
  bcast_S65536_S65536x1_0 : S65536.BroadcastsInDim S65536x1 (![0] : Fin 1 → Fin S65536x1.rank)

variable [Facts₀]

class Facts : Prop extends Facts₀ where

variable [Facts]
-- ==== Proof.PointValue.lean ====
/-
  What the body leaves in the output's staging buffer at one grid point.

  The body's single store covers the whole 1 × 1 × 2048 staging buffer, so what the buffer holds afterwards is that
  store's value: the body's arithmetic applied to what its six loads read — the two column halves (features 0–511
  and 512–1023) of the point's block of `x`, and the matching halves of `w` and of `b`.
-/
import proofs.«121275_j28518582846260_2_alg».proof.Proof.Gen.KernelIdeal.Frame
import Idealize.ShloMosaic.Lib.Pipeline.Value
import Idealize.ShloMosaic.Lib.Tactic

noncomputable section

namespace Cert.KernelIdeal.PointValue

open Idealize.ShloMosaic Idealize.ShloMosaic.TcCoe Idealize.SL.Sem Cert.KernelIdeal Cert.KernelIdeal.Gen

variable {F : FTy → Type} [FloatOps F]

theorem zero3 : (![0, 0, 0] : Fin 3 → Nat) = fun _ => 0 := funext fun a => by fin_cases a <;> rfl

/-- The staging buffer after the body, from the contents `x0`, `x1`, `x2` of the three input buffers: the stored
    value, over the left and right halves of each input. -/
theorem out_eq (c : Dev nD) (i : grid0.Coords) (arg1 : Memref sig .tc .vmem S2048x1024 .f32) (harg1 : arg1.IsWhole)
    (arg2 : Memref sig .tc .vmem S1024 .f32) (harg2 : arg2.IsWhole) (arg3 : Memref sig .tc .vmem S1024 .f32) (harg3 : arg3.IsWhole)
    (arg4 : Memref sig .tc .vmem S1x1x2048 .f32) (harg4 : arg4.IsWhole)
    (x0 : Vec F S2048x1024 .f32) (x1 : Vec F S1024 .f32) (x2 : Vec F S1024 .f32)
    (hl : ∀ a, (![0, 0] : Fin 2 → Nat) a + (![2048, 512] : Fin 2 → Nat) a ≤ S2048x1024.size a)
    (hr : ∀ a, (![0, 512] : Fin 2 → Nat) a + (![2048, 512] : Fin 2 → Nat) a ≤ S2048x1024.size a)
    (hl' : ∀ a, (![0] : Fin 1 → Nat) a + (![512] : Fin 1 → Nat) a ≤ S1024.size a)
    (hr' : ∀ a, (![512] : Fin 1 → Nat) a + (![512] : Fin 1 → Nat) a ≤ S1024.size a) :
    out0_A_3 c i arg1 harg1 arg2 harg2 arg3 harg3 arg4 harg4 x0 x1 x2
      = k0_pay1 (View.ld x0 (Rect.unit (s := S2048x1024) ![0, 0] ![2048, 512] hl))
          (View.ld x1 (Rect.unit (s := S1024) ![0] ![512] hl')) (View.ld x2 (Rect.unit (s := S1024) ![0] ![512] hl'))
          (View.ld x0 (Rect.unit (s := S2048x1024) ![0, 512] ![2048, 512] hr))
          (View.ld x1 (Rect.unit (s := S1024) ![512] ![512] hr')) (View.ld x2 (Rect.unit (s := S1024) ![512] ![512] hr')) := by
  unfold out0_A_3
  rw [View.read_writes_eq_canon _ _ _ (cover0_A_3 c i arg1 harg1 arg2 harg2 arg3 harg3 arg4 harg4 x0 x1 x2)]
  unfold kernelRun0_A
  dsimp only
  rw [View.canon_unit_zero zero3]
  simp only [View.readAt_eq_ld, harg1.read_unread, harg2.read_unread, harg3.read_unread]

end Cert.KernelIdeal.PointValue

end
-- ==== Proof.Spec.lean ====
/-
  The mathematics of the certificate, with no program in sight.

  For a matrix `x` with 1024 features per row, a weight vector `w` and a bias vector `b` over the features,
  feature `k` of row `r` contributes the square of `tanh (x r k * w k + b k)` (`cell`, `contrib`), and the result
  at row `r` is the sum of the 1024 contributions (`rowSum`); for the full 65536-row matrix the results are laid
  out as a column (`colSum`). Everything is over the extended reals: `tanh` is total there and a finite sum is a
  sum in a commutative monoid. No step below uses more than the monoid laws, so infinite entries need no care.

  The one law used later: a sum over 1024 features is the sum over the first 512 plus the sum over the last 512
  (`sum_halves`), which is how a row's sum is accumulated in two chunks (`chunks_eq_rowSum`).
-/
import Idealize.ShloMosaic.PureOps.Ideal
import Idealize.ShloMosaic.PureOps.Ideal.Laws
import Idealize.ShloMosaic.Lib.ValueIdx

noncomputable section

namespace Cert.SquareSum

open Idealize.ShloMosaic Idealize.ShloMosaic.ValueIdx

/-- A matrix of `R` rows and 1024 features, a vector over the features, and the column of 65536 results. -/
abbrev Mat (R : Nat) : Type := (⟨2, ![R, 1024]⟩ : Shape).Idx → EReal
abbrev Feat : Type := (⟨1, ![1024]⟩ : Shape).Idx → EReal
abbrev Col : Type := (⟨2, ![65536, 1]⟩ : Shape).Idx → EReal

/-- One entry's contribution: the square of `tanh (a * u + v)`. -/
def cell (a u v : EReal) : EReal := Ideal.tanh (a * u + v) * Ideal.tanh (a * u + v)

/-- Feature `k`'s contribution to row `r`. -/
def contrib {R : Nat} (x : Mat R) (w b : Feat) (r : Fin R) (k : Fin 1024) : EReal :=
  cell (x (ix2 r k)) (w (ix1 k)) (b (ix1 k))

/-- Row `r`'s result: the sum of its 1024 contributions. -/
def rowSum {R : Nat} (x : Mat R) (w b : Feat) (r : Fin R) : EReal := ∑ k : Fin 1024, contrib x w b r k

/-- The result as a column: entry `(r, 0)` is row `r`'s sum. -/
def colSum (x : Mat 65536) (w b : Feat) : Col := fun j => rowSum x w b (j 0)

/-- Feature `k` of the first half, and of the second half, of the 1024 features. -/
abbrev lo (k : Fin 512) : Fin 1024 := ⟨k.val, by have := k.isLt; omega⟩
abbrev hi (k : Fin 512) : Fin 1024 := ⟨512 + k.val, by have := k.isLt; omega⟩

/-- A sum over the 1024 features is the sum over the first 512 plus the sum over the last 512. -/
theorem sum_halves {M : Type*} [AddCommMonoid M] (f : Fin 1024 → M) :
    ∑ k : Fin 1024, f k = ∑ k : Fin 512, f (lo k) + ∑ k : Fin 512, f (hi k) :=
  Fin.sum_univ_add (a := 512) (b := 512) f

/-- So the two-chunk accumulation `(0 + first half) + second half` is the row's sum. -/
theorem chunks_eq_rowSum {R : Nat} (x : Mat R) (w b : Feat) (r : Fin R) :
    (0 + ∑ k : Fin 512, contrib x w b r (lo k)) + ∑ k : Fin 512, contrib x w b r (hi k) = rowSum x w b r := by
  rw [zero_add, rowSum, sum_halves]

/-! ## The rows in 32 blocks of 2048 -/

/-- Row `q` of block `g`, when the 65536 rows are taken as 32 consecutive blocks of 2048. -/
def rowOf (g : Fin 32) (q : Fin 2048) : Fin 65536 := ⟨2048 * g.val + q.val, by have := g.isLt; have := q.isLt; omega⟩

/-- The results arranged block by block: entry `(g, 0, q)` is the sum of row `q` of block `g`. -/
def blockSums (x : Mat 65536) (w b : Feat) : (⟨3, ![32, 1, 2048]⟩ : Shape).Idx → EReal :=
  fun i => rowSum x w b (rowOf (i 0) (i 2))

/-- The row sums of block `g` taken by itself (a 2048-row matrix `X0` holding the block's rows, with the same
    weights and biases) are the whole matrix's row sums at the block's rows. -/
theorem rowSum_block (x : Mat 65536) (w b : Feat) (X0 : Mat 2048) (X1 X2 : Feat) (g : Fin 32)
    (h0 : ∀ (q : Fin 2048) (k : Fin 1024), X0 (ix2 q k) = x (ix2 (rowOf g q) k))
    (h1 : ∀ k : Fin 1024, X1 (ix1 k) = w (ix1 k)) (h2 : ∀ k : Fin 1024, X2 (ix1 k) = b (ix1 k)) (q : Fin 2048) :
    rowSum X0 X1 X2 q = rowSum x w b (rowOf g q) := by
  unfold rowSum contrib
  exact Finset.sum_congr rfl fun k _ => by rw [h0, h1, h2]

/-- Every row is row `r % 2048` of block `r / 2048`. -/
theorem rowOf_div_mod (r : Fin 65536) :
    rowOf ⟨r.val / 2048, by have := r.isLt; omega⟩ ⟨r.val % 2048, by omega⟩ = r :=
  Fin.ext (by show 2048 * (r.val / 2048) + r.val % 2048 = r.val; omega)

end Cert.SquareSum

end
-- ==== Proof.Payload.lean ====
/-
  What the kernel body computes at one grid point, read entry by entry at the ideal values.

  The body loads the two 512-feature halves of its 2048-row block of `x` and the matching halves of `w` and `b`,
  and for each half forms `tanh (x * w + b)` squared entry by entry (`w` and `b` laid along each row) and sums it
  along the features. Entry `q` of what it stores is `(0 + first half's sum at row q) + second half's sum at row q`.
-/
import proofs.«121275_j28518582846260_2_alg».proof.Proof.Gen.KernelIdeal.Skeleton
import proofs.«121275_j28518582846260_2_alg».proof.Proof.Spec
import Idealize.ShloMosaic.Lib.ValueLayout

noncomputable section

namespace Cert.KernelIdeal.Payload

open Idealize.ShloMosaic Idealize.ShloMosaic.ValueIdx Cert.KernelIdeal Cert.KernelIdeal.Gen Cert.SquareSum
/-- A feature vector laid along every row of a 2048 × 512 block reads, at `(q, k)`, its entry `k`. -/
theorem row_apply (u : FVec Ideal S512 .f32) (q : Fin 2048) (k : Fin 512) :
    broadcastTo S2048x512 (shapeCast S1x512 u shapeCasts_S512_S1x512) broadcasts_S1x512_S2048x512 (ix2 q k)
      = u (ix1 k) :=
  (broadcastTo_1b_ab_apply _ broadcasts_S1x512_S2048x512 q k).trans
    (shapeCast_a_1a_apply u shapeCasts_S512_S1x512 0 k)

/-- The sum along the features of a 2048 × 512 block, at row `q`, is the sum of that row's 512 entries. -/
theorem laneSum_apply (src : FVec Ideal S2048x512 .f32) (h : S2048x512.Reduces [1] S2048) (hφ : FKind.Formats .f32)
    (hacc : (0x00000000#32 : BitVec 32) = 0x00000000#32) (q : Fin 2048) :
    multiReduction .add [1] S2048 src 0x00000000#32 h hφ hacc (ix1 q) = ∑ k : Fin 512, src (ix2 q k) := by
  refine (Ideal.multiReduction_add_single src 0x00000000#32 h hφ hacc (ix1 q)).trans ?_
  refine Finset.sum_congr rfl fun k _ => congrArg src ?_
  funext a
  apply Fin.ext
  match a with
  | ⟨0, _⟩ => rfl
  | ⟨1, _⟩ => rfl

/-- One half's entry: the square of `tanh (x * w + b)`, with `w` and `b` laid along the rows, at `(q, k)`. -/
theorem half_apply (v : FVec Ideal S2048x512 .f32) (u z : FVec Ideal S512 .f32) (q : Fin 2048) (k : Fin 512) :
    mulf (tanh (addf (mulf v (broadcastTo S2048x512 (shapeCast S1x512 u shapeCasts_S512_S1x512) broadcasts_S1x512_S2048x512))
        (broadcastTo S2048x512 (shapeCast S1x512 z shapeCasts_S512_S1x512) broadcasts_S1x512_S2048x512)))
      (tanh (addf (mulf v (broadcastTo S2048x512 (shapeCast S1x512 u shapeCasts_S512_S1x512) broadcasts_S1x512_S2048x512))
        (broadcastTo S2048x512 (shapeCast S1x512 z shapeCasts_S512_S1x512) broadcasts_S1x512_S2048x512))) (ix2 q k)
      = cell (v (ix2 q k)) (u (ix1 k)) (z (ix1 k)) := by
  show Ideal.tanh (v (ix2 q k) * _ + _) * Ideal.tanh (v (ix2 q k) * _ + _) = _
  rw [row_apply u q k, row_apply z q k]
  rfl

/-- THE PAYLOAD AT AN ENTRY: `(0 + first half's row sum) + second half's row sum`. -/
theorem pay_apply (v4 : FVec Ideal S2048x512 .f32) (v6 v8 : FVec Ideal S512 .f32) (v22 : FVec Ideal S2048x512 .f32)
    (v24 v26 : FVec Ideal S512 .f32) (q : Fin 2048) :
    k0_pay1 (F := Ideal) v4 v6 v8 v22 v24 v26 (ix3 (0 : Fin 1) (0 : Fin 1) q)
      = (0 + ∑ k : Fin 512, cell (v4 (ix2 q k)) (v6 (ix1 k)) (v8 (ix1 k)))
        + ∑ k : Fin 512, cell (v22 (ix2 q k)) (v24 (ix1 k)) (v26 (ix1 k)) := by
  unfold k0_pay1
  dsimp only
  refine (shapeCast_apply _ shapeCasts_S2048_S1x1x2048 (ix3 (0 : Fin 1) (0 : Fin 1) q) (ix1 q) (by
    rw [Shape.rowMajor_val_three, Shape.rowMajor_val_one]
    show q.val = (0 * 1 + 0) * 2048 + q.val
    omega)).trans ?_
  refine (addf_apply _ _ (ix1 q)).trans ?_
  refine congrArg₂ (· + ·) ((addf_apply _ _ (ix1 q)).trans (congrArg₂ (· + ·) Ideal.ofBits_zero_f32 ?_)) ?_
  · exact (laneSum_apply _ _ _ _ q).trans (Finset.sum_congr rfl fun k _ => half_apply v4 v6 v8 q k)
  · exact (laneSum_apply _ _ _ _ q).trans (Finset.sum_congr rfl fun k _ => half_apply v22 v24 v26 q k)

/-! ## Over what the six loads read -/

/-- The left half of a 2048 × 1024 block reads, at `(q, k)`, the block at feature `k`; -/
theorem ld_left (X0 : Vec Ideal S2048x1024 .f32)
    (h : ∀ a, (![0, 0] : Fin 2 → Nat) a + (![2048, 512] : Fin 2 → Nat) a ≤ S2048x1024.size a) (q : Fin 2048) (k : Fin 512) :
    View.ld X0 (Rect.unit (s := S2048x1024) ![0, 0] ![2048, 512] h) (ix2 q k) = X0 (ix2 q (lo k)) :=
  congrArg X0 (funext fun a => Fin.ext (by
    match a with
    | ⟨0, _⟩ => show 0 + 1 * q.val = q.val; omega
    | ⟨1, _⟩ => show 0 + 1 * k.val = k.val; omega))

/-- the right half at feature `512 + k`; -/
theorem ld_right (X0 : Vec Ideal S2048x1024 .f32)
    (h : ∀ a, (![0, 512] : Fin 2 → Nat) a + (![2048, 512] : Fin 2 → Nat) a ≤ S2048x1024.size a) (q : Fin 2048) (k : Fin 512) :
    View.ld X0 (Rect.unit (s := S2048x1024) ![0, 512] ![2048, 512] h) (ix2 q k) = X0 (ix2 q (hi k)) :=
  congrArg X0 (funext fun a => Fin.ext (by
    match a with
    | ⟨0, _⟩ => show 0 + 1 * q.val = q.val; omega
    | ⟨1, _⟩ => show 512 + 1 * k.val = 512 + k.val; omega))

/-- and likewise the two halves of a feature vector. -/
theorem ldv_left (X1 : Vec Ideal S1024 .f32) (h : ∀ a, (![0] : Fin 1 → Nat) a + (![512] : Fin 1 → Nat) a ≤ S1024.size a)
    (k : Fin 512) : View.ld X1 (Rect.unit (s := S1024) ![0] ![512] h) (ix1 k) = X1 (ix1 (lo k)) :=
  congrArg X1 (funext fun a => Fin.ext (by
    match a with
    | ⟨0, _⟩ => show 0 + 1 * k.val = k.val; omega))

theorem ldv_right (X1 : Vec Ideal S1024 .f32) (h : ∀ a, (![512] : Fin 1 → Nat) a + (![512] : Fin 1 → Nat) a ≤ S1024.size a)
    (k : Fin 512) : View.ld X1 (Rect.unit (s := S1024) ![512] ![512] h) (ix1 k) = X1 (ix1 (hi k)) :=
  congrArg X1 (funext fun a => Fin.ext (by
    match a with
    | ⟨0, _⟩ => show 512 + 1 * k.val = 512 + k.val; omega))

/-- THE POINT'S VALUE: over the two halves of the block `X0` and of `X1`, `X2`, entry `q` of what the body stores
    is row `q`'s sum over all 1024 features of the block. -/
theorem point_value (X0 : Vec Ideal S2048x1024 .f32) (X1 X2 : Vec Ideal S1024 .f32)
    (hl : ∀ a, (![0, 0] : Fin 2 → Nat) a + (![2048, 512] : Fin 2 → Nat) a ≤ S2048x1024.size a)
    (hr : ∀ a, (![0, 512] : Fin 2 → Nat) a + (![2048, 512] : Fin 2 → Nat) a ≤ S2048x1024.size a)
    (hl' : ∀ a, (![0] : Fin 1 → Nat) a + (![512] : Fin 1 → Nat) a ≤ S1024.size a)
    (hr' : ∀ a, (![512] : Fin 1 → Nat) a + (![512] : Fin 1 → Nat) a ≤ S1024.size a) (q : Fin 2048) :
    k0_pay1 (F := Ideal) (View.ld X0 (Rect.unit (s := S2048x1024) ![0, 0] ![2048, 512] hl))
        (View.ld X1 (Rect.unit (s := S1024) ![0] ![512] hl')) (View.ld X2 (Rect.unit (s := S1024) ![0] ![512] hl'))
        (View.ld X0 (Rect.unit (s := S2048x1024) ![0, 512] ![2048, 512] hr))
        (View.ld X1 (Rect.unit (s := S1024) ![512] ![512] hr')) (View.ld X2 (Rect.unit (s := S1024) ![512] ![512] hr'))
        (ix3 (0 : Fin 1) (0 : Fin 1) q)
      = rowSum (R := 2048) X0 X1 X2 q := by
  refine (pay_apply _ _ _ _ _ _ q).trans ?_
  refine Eq.trans ?_ (chunks_eq_rowSum (R := 2048) X0 X1 X2 q)
  refine congrArg₂ (· + ·) (congrArg (0 + ·) (Finset.sum_congr rfl fun k _ => ?_)) (Finset.sum_congr rfl fun k _ => ?_)
  · rw [ld_left X0 hl q k, ldv_left X1 hl' k, ldv_left X2 hl' k]; rfl
  · rw [ld_right X0 hr q k, ldv_right X1 hr' k, ldv_right X2 hr' k]; rfl

/-- The same as an entry of the block-by-block arrangement: when `X0`, `X1`, `X2` are block `g` of `x` and the
    whole of `w` and `b`, entry `y` of what the body stores is entry `i` of `blockSums x w b` for the index `i` of
    block `g` with `y`'s last coordinate. -/
theorem block_eq (x : Mat 65536) (w b : Feat) (g : Fin 32) (X0 : Vec Ideal S2048x1024 .f32) (X1 X2 : Vec Ideal S1024 .f32)
    (h0 : ∀ (q : Fin 2048) (k : Fin 1024), X0 (ix2 q k) = x (ix2 (rowOf g q) k))
    (h1 : ∀ k : Fin 1024, X1 (ix1 k) = w (ix1 k)) (h2 : ∀ k : Fin 1024, X2 (ix1 k) = b (ix1 k))
    (hl : ∀ a, (![0, 0] : Fin 2 → Nat) a + (![2048, 512] : Fin 2 → Nat) a ≤ S2048x1024.size a)
    (hr : ∀ a, (![0, 512] : Fin 2 → Nat) a + (![2048, 512] : Fin 2 → Nat) a ≤ S2048x1024.size a)
    (hl' : ∀ a, (![0] : Fin 1 → Nat) a + (![512] : Fin 1 → Nat) a ≤ S1024.size a)
    (hr' : ∀ a, (![512] : Fin 1 → Nat) a + (![512] : Fin 1 → Nat) a ≤ S1024.size a)
    (y : S1x1x2048.Idx) (i : S32x1x2048.Idx) (hi0 : (i 0).val = g.val) (hi2 : (i 2).val = (y 2).val) :
    k0_pay1 (F := Ideal) (View.ld X0 (Rect.unit (s := S2048x1024) ![0, 0] ![2048, 512] hl))
        (View.ld X1 (Rect.unit (s := S1024) ![0] ![512] hl')) (View.ld X2 (Rect.unit (s := S1024) ![0] ![512] hl'))
        (View.ld X0 (Rect.unit (s := S2048x1024) ![0, 512] ![2048, 512] hr))
        (View.ld X1 (Rect.unit (s := S1024) ![512] ![512] hr')) (View.ld X2 (Rect.unit (s := S1024) ![512] ![512] hr')) y
      = blockSums x w b i := by
  obtain ⟨a, a', q, rfl⟩ : ∃ (a : Fin 1) (a' : Fin 1) (q : Fin 2048), y = ix3 a a' q := ⟨y 0, y 1, y 2, eq_ix3 y⟩
  obtain rfl : a = 0 := Subsingleton.elim _ _
  obtain rfl : a' = 0 := Subsingleton.elim _ _
  refine (point_value X0 X1 X2 hl hr hl' hr' q).trans ?_
  refine (rowSum_block x w b X0 X1 X2 g h0 h1 h2 q).trans ?_
  unfold blockSums
  refine congrArg (rowSum x w b) (Fin.ext ?_)
  show 2048 * g.val + q.val = 2048 * (i 0).val + (i 2).val
  have e2 : (i 2).val = q.val := hi2
  omega

end Cert.KernelIdeal.Payload

end
-- ==== Proof.KernelValue.lean ====
/-
  What the kernel's program leaves in its result, at the ideal values.

  Grid point `t` (of 32) fetches rows `2048 t … 2048 t + 2047` of `x` and the whole of `w` and `b`, and writes
  back block `t` of a 32 × 1 × 2048 array: by the point's value, entry `(t, 0, q)` is the sum of row `2048 t + q`.
  The 32 blocks tile that array, so after the run it holds every row's sum, block by block; the final reshape to
  65536 × 1 keeps the row-major order, and entry `(r, 0)` is row `r`'s sum: the column of row sums.
-/
import proofs.«121275_j28518582846260_2_alg».proof.Proof.PointValue
import proofs.«121275_j28518582846260_2_alg».proof.Proof.Payload

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.SquareSum

variable (m : (ℓ : Loc nD τ sig) → Buf (Elt Ideal) ℓ) (ρ : Dev nD → PrngReg)

/-- The index maps over the grid: point `t` takes block `t` of `x`'s rows and of the output's leading axis, and
    block 0 on every other axis of every window. -/
theorem idx_facts : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- The block of `x` at point `t` is rows `2048 t + q` of `x`. -/
theorem iblk0_apply (c : Dev nD) (t : Fin cfg0.N) (g : Fin 32) (hg : g.val = t.val) (q : Fin 2048) (k : Fin 1024) :
    (iblk m c 0 t : Vec Ideal S2048x1024 .f32) (ix2 q k) = (V m c main_arg0 : Mat 65536) (ix2 (rowOf g q) k) := by
  obtain ⟨e0, e1, -⟩ := idx_facts t
  unfold iblk
  rw [View.read_apply]
  show V m c main_arg0 _ = V m c main_arg0 _
  refine congrArg (V m c main_arg0) ?_
  funext a
  apply Fin.ext
  match a with
  | ⟨0, _⟩ => show win0_0.index t (0 : Fin 2) * 2048 + 1 * q.val = 2048 * g.val + q.val; rw [e0, hg]; omega
  | ⟨1, _⟩ => show win0_0.index t (1 : Fin 2) * 1024 + 1 * k.val = k.val; rw [e1]; omega

/-- The block of `w` at every point is `w`. -/
theorem iblk1_apply (c : Dev nD) (t : Fin cfg0.N) (k : Fin 1024) :
    (iblk m c 1 t : Vec Ideal S1024 .f32) (ix1 k) = (V m c main_arg1 : Feat) (ix1 k) := by
  obtain ⟨-, -, e2, -⟩ := idx_facts t
  unfold iblk
  rw [View.read_apply]
  show V m c main_arg1 _ = V m c main_arg1 _
  refine congrArg (V m c main_arg1) ?_
  funext a
  apply Fin.ext
  match a with
  | ⟨0, _⟩ => show win0_1.index t (0 : Fin 1) * 1024 + 1 * k.val = k.val; rw [e2]; omega

/-- The block of `b` at every point is `b`. -/
theorem iblk2_apply (c : Dev nD) (t : Fin cfg0.N) (k : Fin 1024) :
    (iblk m c 2 t : Vec Ideal S1024 .f32) (ix1 k) = (V m c main_arg2 : Feat) (ix1 k) := by
  obtain ⟨-, -, -, e3, -⟩ := idx_facts t
  unfold iblk
  rw [View.read_apply]
  show V m c main_arg2 _ = V m c main_arg2 _
  refine congrArg (V m c main_arg2) ?_
  funext a
  apply Fin.ext
  match a with
  | ⟨0, _⟩ => show win0_2.index t (0 : Fin 1) * 1024 + 1 * k.val = k.val; rw [e3]; omega

/-- WHAT POINT `t` WRITES BACK is block `t` of the block-by-block row sums of the arguments. -/
theorem flushed_eq (c : Dev nD) (t : Fin cfg0.N) :
    (dats m 0 c).flushed 3 t
      = ((cfg0.win 3).blk t).view.read (Elt Ideal) (blockSums (V m c main_arg0) (V m c main_arg1) (V m c main_arg2)) := by
  have hN : cfg0.N = 32 := N_0
  have ht : t.val < 32 := by have := t.isLt; omega
  obtain ⟨-, -, -, -, e4, -, e6⟩ := idx_facts t
  show (cfg0.win 3).cut (grid0.coords t) ((dats m 0 c).after 3 t) = _
  rw [after0_3]
  unfold outsAt0
  rw [PointValue.out_eq c (grid0.coords t) (ms0_0 t) (hs0_0 t) (ms0_1 t) (hs0_1 t) (ms0_2 t) (hs0_2 t) (ms0_3 t) (hs0_3 t)
    (iblk m c 0 t) (iblk m c 1 t) (iblk m c 2 t) (by decide) (by decide) (by decide) (by decide)]
  funext j
  rw [View.read_apply]
  refine Payload.block_eq (V m c main_arg0) (V m c main_arg1) (V m c main_arg2) ⟨t.val, ht⟩ (iblk m c 0 t) (iblk m c 1 t) (iblk m c 2 t)
    (iblk0_apply m c t ⟨t.val, ht⟩ rfl) (iblk1_apply m c t) (iblk2_apply m c t) _ _ _ _
    ((cfg0.win 3).xinj (grid0.coords t) j) (((cfg0.win 3).blk t).view.emb j) ?_ ?_
  · show win0_3.index t (0 : Fin 3) * 1 + 1 * (j 0).val = t.val
    have hj : (j 0).val < 1 := (j 0).isLt
    rw [e4]; omega
  · show win0_3.index t (2 : Fin 3) * 2048 + 1 * (j 2).val = (j 2).val
    rw [e6]; omega

/-- An index of the 32 × 1 × 2048 array is in point `t`'s block iff each coordinate is in the block's range. -/
theorem mem_blk (t : Fin cfg0.N) (i : S32x1x2048.Idx) :
    i ∈ ((cfg0.win 3).blk t).view.set ↔ ∀ a : Fin 3, win0_3.index t a * S1x1x2048.size a ≤ (i a).val
      ∧ (i a).val < win0_3.index t a * S1x1x2048.size a + S1x1x2048.size a := by
  show i ∈ ((View.whole main_v0).slice (win0_3.rect t)).set ↔ _
  rw [View.set_slice_whole, Rect.mem_set_unit]
  exact Iff.rfl

/-- Every index is in the block of the point named by its leading coordinate. -/
theorem cover (i : S32x1x2048.Idx) :
    ∃ t : Fin cfg0.N, (cfg0.win 3).flush t = true ∧ i ∈ ((cfg0.win 3).blk t).view.set := by
  have hN : cfg0.N = 32 := N_0
  have h0 : (i 0).val < 32 := (i 0).isLt
  have h1 : (i 1).val < 1 := (i 1).isLt
  have h2 : (i 2).val < 2048 := (i 2).isLt
  obtain ⟨t, ht⟩ : ∃ t : Fin cfg0.N, t.val = (i 0).val := ⟨⟨(i 0).val, by omega⟩, rfl⟩
  obtain ⟨-, -, -, -, e4, e5, e6⟩ := idx_facts t
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 2048 ≤ (i 2).val ∧ (i 2).val < win0_3.index t (2 : Fin 3) * 2048 + 2048; omega

/-- THE 32 × 1 × 2048 ARRAY after the region: every row's sum, block by block. -/
theorem final (c : Dev nD) :
    (dats m 0 c).arrAt 3 cfg0.N = blockSums (V m c main_arg0) (V m c main_arg1) (V m c main_arg2) :=
  (dats m 0 c).arrAt_eq_of_cover 3 (blockSums (V m c main_arg0) (V m c main_arg1) (V m c main_arg2))
    (fun t _ => flushed_eq m c t) cover

/-- The block-by-block arrangement read in row-major order as a column is the column of row sums. -/
theorem reshape_eq (x : Mat 65536) (w b : Feat) :
    shapeCast S65536x1 (blockSums x w b) shapeCasts_S32x1x2048_S65536x1 = colSum x w b := by
  funext j
  obtain ⟨r, z, rfl⟩ : ∃ (r : Fin 65536) (z : Fin 1), j = ix2 r z := ⟨j 0, j 1, eq_ix2 j⟩
  have hr : r.val < 65536 := r.isLt
  have hz : z.val < 1 := z.isLt
  refine (shapeCast_apply (blockSums x w b) shapeCasts_S32x1x2048_S65536x1 (ix2 r z)
    (ix3 (⟨r.val / 2048, by omega⟩ : Fin 32) (0 : Fin 1) (⟨r.val % 2048, by omega⟩ : Fin 2048)) (by
      rw [Shape.rowMajor_val_three, Shape.rowMajor_val_two]
      show (r.val / 2048 * 1 + 0) * 2048 + r.val % 2048 = r.val * 1 + z.val
      omega)).trans ?_
  show rowSum x w b (rowOf _ _) = rowSum x w b r
  rw [rowOf_div_mod]

/-- THE RESULT after the run: the reshape of the region's array is the column of row sums. -/
theorem tail_eq (c : Dev nD) :
    Pipeline.afterTail₀ cfgs (dats m) 0 (V0 m) [hostOps1] c main_v1
      = colSum (V m c main_arg0) (V m c main_arg1) (V m c main_arg2) := by
  unfold Pipeline.afterTail₀
  show StableHlo.after hostOps1 _ (Proc.devRef .tc main_v1) = _
  after_results
  have e : Pipeline.withArrays spec0 c (V0 m c) (fun w => (dats m 0 c).arrAt w cfg0.N) (Proc.devRef .tc (Pipeline.arrRef spec0 3))
      = blockSums (V m c main_arg0) (V m c main_arg1) (V m c main_arg2) :=
    (Pipeline.withArrays_arr spec0 launch0.win.arr_inj c (V0 m c) (fun w => (dats m 0 c).arrAt w cfg0.N) 3).trans (final m c)
  exact (congrArg (fun A : S32x1x2048.Idx → Ideal .f32 => shapeCast S65536x1 A shapeCasts_S32x1x2048_S65536x1) e).trans
    (reshape_eq (V m c main_arg0) (V m c main_arg1) (V m c main_arg2))

/-- THE RUN, READ: every weakly fair execution of the kernel's program terminates with the result at the column
    of row sums of the arguments and the arguments unchanged. -/
theorem run : θ_run defs (onTc (τ := τ) (main (F := Ideal))) ⟨m, fun _ => 0, ρ⟩ fun r => ∀ c : Dev nD,
      r.2.mem ((c.tc : Thread nD τ).loc main_v1)
        = colSum (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelValue

end
-- ==== Proof.RefSide.lean ====
/-
  The reference computes the column of row sums.

  Read one operation at a time, the reference's result at `(r, 0)` is its initial value `0` plus the sum over the
  1024 features `k` of the square of `tanh` of `x (r, k) * w k + b k`: the two broadcasts only re-index `w` and `b`
  by the feature coordinate, the product, sum, `tanh` and square act entry by entry, and the reduction over axis 1
  is the finite sum over that axis. That is `colSum`.
-/
import proofs.«121275_j28518582846260_2_alg».proof.Proof.Gen.ReferenceIdeal.Read
import proofs.«121275_j28518582846260_2_alg».proof.Proof.Spec

noncomputable section

namespace Cert.ReferenceIdeal.RefSide

open Idealize.ShloMosaic Idealize.ShloMosaic.ValueIdx Cert.ReferenceIdeal Cert.SquareSum

/-- The reference's last stage, at the ideal values, is the column of row sums. -/
theorem stage_eq_colSum (x : Mat 65536) (w b : Feat) : Read.val_main_v9 (F := Ideal) x w b = colSum x w b := by
  funext i
  obtain ⟨r, z, rfl⟩ : ∃ (r : Fin 65536) (z : Fin 1), i = ix2 r z := ⟨i 0, i 1, eq_ix2 i⟩
  rw [Read.val_main_v9_apply, Read.val_main_v8_apply, Read.val_main_cst_apply]
  show Ideal.ofBits .f32 0x00000000#32 + _ = rowSum x w b r
  rw [Ideal.ofBits_zero_f32, zero_add]
  unfold rowSum
  refine Finset.sum_congr rfl fun k _ => ?_
  have e8 : Read.idx_main_v8 (Read.idx_main_v9 (ix2 r z)) k = ix2 r k :=
    funext fun a => Fin.ext (by match a with | ⟨0, _⟩ => rfl | ⟨1, _⟩ => rfl)
  have e1 : Read.idx_main_v0 (Read.idx_main_v1 (ix2 r k)) = ix1 k :=
    funext fun a => Fin.ext (by match a with | ⟨0, _⟩ => rfl)
  have e3 : Read.idx_main_v3 (Read.idx_main_v4 (ix2 r k)) = ix1 k :=
    funext fun a => Fin.ext (by match a with | ⟨0, _⟩ => rfl)
  rw [e8, Read.val_main_v7_apply, Read.val_main_v6_apply, Read.val_main_v5_apply, Read.val_main_v2_apply,
    Read.val_main_v1_apply, Read.val_main_v0_apply, Read.val_main_v4_apply, Read.val_main_v3_apply, e1, e3]
  rfl

end Cert.ReferenceIdeal.RefSide

end
-- ==== Proof.lean ====
/-
  The certificate's five claims.

  The kernel computes, for each of 65536 rows of `x`, the sum over 1024 features of `tanh (x * w + b)` squared; it
  does so 2048 rows per grid point, each row's sum accumulated as `(0 + sum over features 0–511) + sum over features
  512–1023`, and lays the 32 blocks of results out as a column. The reference computes the same column as one sum
  over all 1024 features per row. Over the extended reals a finite sum may be split and regrouped freely, so the two
  columns are equal entry by entry (`Cert.SquareSum.chunks_eq_rowSum`); no finiteness of the inputs is needed.

  * The three frames: the two kernel programs run, terminate and leave their arguments unchanged (the generated
    frame proofs); the reference's run, with its result forgotten, says the same of the reference.
  * The idealized kernel is the kernel's own text read at the ideal values: nothing was rewritten, so there is
    nothing to preserve.
  * Both idealized programs end with the column of row sums of the same arguments
    (`Cert.KernelIdeal.KernelValue.run`; `Cert.ReferenceIdeal.RefSide.stage_eq_colSum`).
-/
import proofs.«121275_j28518582846260_2_alg».proof.Defs
import proofs.«121275_j28518582846260_2_alg».proof.Proof.Gen.Kernel
import proofs.«121275_j28518582846260_2_alg».proof.Proof.Gen.Kernel.Frame
import proofs.«121275_j28518582846260_2_alg».proof.Proof.Gen.KernelIdeal
import proofs.«121275_j28518582846260_2_alg».proof.Proof.Gen.KernelIdeal.Frame
import proofs.«121275_j28518582846260_2_alg».proof.Proof.Gen.ReferenceIdeal
import proofs.«121275_j28518582846260_2_alg».proof.Proof.Gen.ReferenceIdeal.Run
import proofs.«121275_j28518582846260_2_alg».proof.Proof.Gen.ReferenceIdeal.Read
import proofs.«121275_j28518582846260_2_alg».proof.Proof.Gen.Pre_finite_inputs
import proofs.«121275_j28518582846260_2_alg».proof.Proof.KernelValue
import proofs.«121275_j28518582846260_2_alg».proof.Proof.RefSide
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories that agree on `x`, `w` and `b`, both idealized programs end with the column of row sums. -/
theorem algebraic : Cert.algebraic_KernelIdeal_ReferenceIdeal := by
  intro m ρ m' ρ' _ hagree
  refine ⟨fun c => Cert.SquareSum.colSum
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, Cert.ReferenceIdeal.RefSide.stage_eq_colSum,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
